-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32x64 .f32) (main_arg9 : FVec F S32 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S32x64 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S32x64 .f32) (main_arg9 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩
abbrev S64x32 : Shape := ⟨2, ![64, 32]⟩

abbrev nBuf : Space → Nat
  | .hbm => 69
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S1x32, .f32⟩
  | .hbm, ⟨68, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S32x64, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S100000x32.size a
  hwx1_7 : ∀ i : grid1.Coords, EltTy.bits .f32 = 32 ∨ (Rect.block (s := S100000x32) S10000x32.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x32, .f32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.SageRun.lean ====
/-
  The kernel program's run with its result named. Every weakly fair execution of the program terminates with
  every buffer that outlives the regions at the contents the fold through the program gives it: the host
  operations before the first region, the first region's output array, the host operations between the two
  regions, the second region's output array. Read against the final state this gives the result array as the
  second region's output array after its ten write-backs, beside the ten argument arrays as launched.
-/
import proofs.«157710_j51616916963801_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this statement, which takes
-- unfolding plain definitions in a metavariable's type
set_option backward.isDefEq.respectTransparency.types false in
/-- The run, with the result array named: after the last write-back the result buffer holds the fold's contents,
    and the arguments are as launched. -/
theorem run_named : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.SageRun

end
-- ==== Proof.SageSpec.lean ====
/-
  Two layers of mean-aggregating graph convolution followed by a linear readout, entry by entry on the
  extended reals.

  One layer sends the aggregated neighbour features `a` and the node's own features `h` (rows: nodes,
  columns: the 64 input features) to
      max ( (∑ₖ a p k · wl q k  +  b q)  +  ∑ₖ h p k · wr q k ,  0 )
  at node `p` and output feature `q`: two products with the TRANSPOSED weight matrices (`wl q k` is the
  weight from input feature `k` to output feature `q`), the bias added to the first product before the
  second product is added, and the rectifier last. The readout sends the second layer's features to
      ∑ₖ h2 p k · wh j k  +  bh j .
  The zero of the rectifier is kept as the word `0x00000000` of the 32-bit format: both programs compare
  against that same word, so its value is never needed.

  Everything here is stated over coordinates (`Fin n`, `Fin 64`, `Fin 32`): the row count `n` is the whole
  node set for an array and one block of rows for a block, and the same formula reads both.
-/
import Idealize.ShloMosaic.Lib.ValueIdx

noncomputable section

open scoped BigOperators

namespace Cert.Sage

open Idealize.ShloMosaic Idealize.ShloMosaic.ValueIdx

/-- The rectifier's threshold: the 32-bit word of `0.0`, read at the extended reals. -/
abbrev zeroWord : EReal := Ideal.ofBits .f32 0x00000000#32

/-- One entry of a layer: node `p`, output feature `q`. -/
def layerAt {n : Nat} (a h : Fin n → Fin 64 → EReal) (wl wr : Fin 64 → Fin 64 → EReal) (b : Fin 64 → EReal)
    (p : Fin n) (q : Fin 64) : EReal :=
  max (((∑ k : Fin 64, a p k * wl q k) + b q) + ∑ k : Fin 64, h p k * wr q k) zeroWord

/-- One entry of the readout: node `p`, output `j`. -/
def readoutAt {n : Nat} (h2 : Fin n → Fin 64 → EReal) (wh : Fin 32 → Fin 64 → EReal) (bh : Fin 32 → EReal)
    (p : Fin n) (j : Fin 32) : EReal :=
  (∑ k : Fin 64, h2 p k * wh j k) + bh j

/-- A matrix given on indices, read by its two coordinates. -/
abbrev byCoords {n0 n1 : Nat} (x : (⟨2, ![n0, n1]⟩ : Shape).Idx → EReal) : Fin n0 → Fin n1 → EReal :=
  fun r k => x (ix2 r k)

/-- A vector given on indices, read by its coordinate. -/
abbrev byCoord {n : Nat} (x : (⟨1, ![n]⟩ : Shape).Idx → EReal) : Fin n → EReal := fun o => x (ix1 o)

/-- The single row of a one-row matrix, read by its column. -/
abbrev rowOf {n : Nat} (x : (⟨2, ![1, n]⟩ : Shape).Idx → EReal) : Fin n → EReal := fun o => x (ix2 (0 : Fin 1) o)

/-- A layer over all `n` nodes, as an array on indices; the bias is given by output feature. -/
def layerArr {n : Nat} (a h : (⟨2, ![n, 64]⟩ : Shape).Idx → EReal) (wl wr : (⟨2, ![64, 64]⟩ : Shape).Idx → EReal)
    (b : Fin 64 → EReal) : (⟨2, ![n, 64]⟩ : Shape).Idx → EReal :=
  fun i => layerAt (byCoords a) (byCoords h) (byCoords wl) (byCoords wr) b (i 0) (i 1)

/-- The readout over all `n` nodes, as an array on indices; the bias is given by output. -/
def readoutArr {n : Nat} (h2 : (⟨2, ![n, 64]⟩ : Shape).Idx → EReal) (wh : (⟨2, ![32, 64]⟩ : Shape).Idx → EReal)
    (bh : Fin 32 → EReal) : (⟨2, ![n, 32]⟩ : Shape).Idx → EReal :=
  fun i => readoutAt (byCoords h2) (byCoords wh) bh (i 0) (i 1)

/-- An entry of a layer's array is the layer's entry at the index's coordinates. -/
theorem layerArr_apply {n : Nat} (a h : (⟨2, ![n, 64]⟩ : Shape).Idx → EReal) (wl wr : (⟨2, ![64, 64]⟩ : Shape).Idx → EReal)
    (b : Fin 64 → EReal) (p : Fin n) (q : Fin 64) :
    layerArr a h wl wr b (ix2 p q) = layerAt (byCoords a) (byCoords h) (byCoords wl) (byCoords wr) b p q := rfl

/-- An entry of the readout's array is the readout's entry at the index's coordinates. -/
theorem readoutArr_apply {n : Nat} (h2 : (⟨2, ![n, 64]⟩ : Shape).Idx → EReal) (wh : (⟨2, ![32, 64]⟩ : Shape).Idx → EReal)
    (bh : Fin 32 → EReal) (p : Fin n) (j : Fin 32) :
    readoutArr h2 wh bh (ix2 p j) = readoutAt (byCoords h2) (byCoords wh) bh p j := rfl

/-- Read by coordinates, a layer's array is the layer's entry function. -/
theorem byCoords_layerArr {n : Nat} (a h : (⟨2, ![n, 64]⟩ : Shape).Idx → EReal) (wl wr : (⟨2, ![64, 64]⟩ : Shape).Idx → EReal)
    (b : Fin 64 → EReal) :
    byCoords (layerArr a h wl wr b) = layerAt (byCoords a) (byCoords h) (byCoords wl) (byCoords wr) b := rfl

end Cert.Sage

end
-- ==== Proof.SageHost.lean ====
/-
  The kernel program's result array as one function of its ten arguments.

  Between the launch and the return the program's buffers pass through four stretches: host operations, the first
  tiled region, host operations, the second tiled region. The host operations before each region form the MEAN
  of the neighbours' rows — for every edge the source node's row is gathered, the rows are added up at the edge's
  destination node, and each node's sum is divided by its number of incoming edges, at least one — once from the
  input features and once from the first region's output. That chain is kept here as ONE function `meanOf` of a
  feature matrix and the two edge-endpoint vectors and is never opened: the reference program applies the same
  operations. The biases reach the regions as one-row matrices, whose row is the bias vector.
-/
import proofs.«157710_j51616916963801_1_alg».proof.Proof.Gen.KernelIdeal.Frame
import proofs.«157710_j51616916963801_1_alg».proof.Proof.SageSpec
import Idealize.ShloMosaic.Lib.StableHlo.Run
import Idealize.ShloMosaic.Lib.ValueLayout

set_option maxRecDepth 16384

noncomputable section

namespace Cert.KernelIdeal.SageHost

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx Cert.Sage

variable {F : FTy → Type} [FloatOps F]

/-! ## The edge list's two rows, and the mean of the neighbours' rows -/

/-- The source node of every edge: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The destination node of every edge: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- The mean of the neighbours' rows of `h`: the rows at the edges' sources (a negative source counted from the
    end) added up at the edges' destinations, over the number of edges arriving there, at least one. -/
def meanOf (h : FVec F S100000x64 .f32) (src dst : IVec S1600000 32) : FVec F S100000x64 .f32 :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## What the first region finds at entry -/

set_option maxHeartbeats 4000000 in
/-- The aggregated features the first region reads: the mean of the neighbours' rows of the input features. -/
theorem entry0_mean (c : Dev nD) :
    V1 m ρ c main_v22 = meanOf (m ((c : Thread nD τ).loc main_arg0)) (srcOf (m ((c : Thread nD τ).loc main_arg1))) (dstOf (m ((c : Thread nD τ).loc main_arg1))) := by
  dsimp only [V1, W1, hostOps0]
  after_results_simp
  rfl

set_option maxHeartbeats 4000000 in
/-- The edge sources, as the second stretch of host operations reads them. -/
theorem entry0_src (c : Dev nD) : W1 m ρ c (Proc.devRef .tc main_v1) = srcOf (m ((c : Thread nD τ).loc main_arg1)) := by
  dsimp only [W1, hostOps0]
  after_results_simp
  rfl

set_option maxHeartbeats 4000000 in
/-- The edge destinations, as the second stretch of host operations reads them. -/
theorem entry0_dst (c : Dev nD) : W1 m ρ c (Proc.devRef .tc main_v3) = dstOf (m ((c : Thread nD τ).loc main_arg1)) := by
  dsimp only [W1, hostOps0]
  after_results_simp
  rfl

set_option maxHeartbeats 4000000 in
/-- The node features the first region reads are the input features. -/
theorem entry0_arg0 (c : Dev nD) : V1 m ρ c main_arg0 = m ((c : Thread nD τ).loc main_arg0) := by
  dsimp only [V1, W1, hostOps0]
  after_results_simp

set_option maxHeartbeats 4000000 in
/-- Its left weight matrix is the first layer's. -/
theorem entry0_arg2 (c : Dev nD) : V1 m ρ c main_arg2 = m ((c : Thread nD τ).loc main_arg2) := by
  dsimp only [V1, W1, hostOps0]
  after_results_simp

set_option maxHeartbeats 4000000 in
/-- Its right weight matrix is the first layer's. -/
theorem entry0_arg4 (c : Dev nD) : V1 m ρ c main_arg4 = m ((c : Thread nD τ).loc main_arg4) := by
  dsimp only [V1, W1, hostOps0]
  after_results_simp

set_option maxHeartbeats 4000000 in
/-- Its bias is the first layer's bias vector laid out as one row. -/
theorem entry0_bias (c : Dev nD) :
    V1 m ρ c main_v23 = shapeCast S1x64 (m ((c : Thread nD τ).loc main_arg3)) shapeCasts_S64_S1x64 := by
  dsimp only [V1, W1, hostOps0]
  after_results_simp
  rfl

/-! ## Between the regions: what the first region and the first stretch leave -/

/-- The first region's output array is what its ten write-backs leave. -/
theorem mid_layer (c : Dev nD) : W2 m ρ c (Proc.devRef .tc main_v24) = (dat0 (V1 m ρ) c).arrAt 5 cfg0.N :=
  W2_arr m ρ c 5

/-- The first region leaves the edge sources alone. -/
theorem mid_src (c : Dev nD) : W2 m ρ c (Proc.devRef .tc main_v1) = srcOf (m ((c : Thread nD τ).loc main_arg1)) :=
  (W2_of_ne m ρ c main_v1 (by decide)).trans (entry0_src m ρ c)

/-- The first region leaves the edge destinations alone. -/
theorem mid_dst (c : Dev nD) : W2 m ρ c (Proc.devRef .tc main_v3) = dstOf (m ((c : Thread nD τ).loc main_arg1)) :=
  (W2_of_ne m ρ c main_v3 (by decide)).trans (entry0_dst m ρ c)

set_option maxHeartbeats 4000000 in
/-- An argument no region writes and no host operation writes is, after the first region, as launched. -/
theorem mid_arg5 (c : Dev nD) : W2 m ρ c (Proc.devRef .tc main_arg5) = m ((c : Thread nD τ).loc main_arg5) :=
  (W2_of_ne m ρ c main_arg5 (by decide)).trans (by dsimp only [W1, hostOps0]; after_results_simp)

set_option maxHeartbeats 4000000 in
theorem mid_arg6 (c : Dev nD) : W2 m ρ c (Proc.devRef .tc main_arg6) = m ((c : Thread nD τ).loc main_arg6) :=
  (W2_of_ne m ρ c main_arg6 (by decide)).trans (by dsimp only [W1, hostOps0]; after_results_simp)

set_option maxHeartbeats 4000000 in
theorem mid_arg7 (c : Dev nD) : W2 m ρ c (Proc.devRef .tc main_arg7) = m ((c : Thread nD τ).loc main_arg7) :=
  (W2_of_ne m ρ c main_arg7 (by decide)).trans (by dsimp only [W1, hostOps0]; after_results_simp)

set_option maxHeartbeats 4000000 in
theorem mid_arg8 (c : Dev nD) : W2 m ρ c (Proc.devRef .tc main_arg8) = m ((c : Thread nD τ).loc main_arg8) :=
  (W2_of_ne m ρ c main_arg8 (by decide)).trans (by dsimp only [W1, hostOps0]; after_results_simp)

set_option maxHeartbeats 4000000 in
theorem mid_arg9 (c : Dev nD) : W2 m ρ c (Proc.devRef .tc main_arg9) = m ((c : Thread nD τ).loc main_arg9) :=
  (W2_of_ne m ρ c main_arg9 (by decide)).trans (by dsimp only [W1, hostOps0]; after_results_simp)

/-! ## What the second region finds at entry -/

set_option maxHeartbeats 4000000 in
/-- The aggregated features the second region reads: the mean of the neighbours' rows of the first region's output. -/
theorem entry1_mean (c : Dev nD) :
    V3 m ρ c main_v43 = meanOf (W2 m ρ c (Proc.devRef .tc main_v24)) (W2 m ρ c (Proc.devRef .tc main_v1)) (W2 m ρ c (Proc.devRef .tc main_v3)) := by
  dsimp only [V3, W3, hostOps1]
  after_results_simp
  rfl

set_option maxHeartbeats 4000000 in
/-- The node features the second region reads are the first region's output. -/
theorem entry1_layer (c : Dev nD) : V3 m ρ c main_v24 = W2 m ρ c (Proc.devRef .tc main_v24) := by
  dsimp only [V3, W3, hostOps1]
  after_results_simp

set_option maxHeartbeats 4000000 in
theorem entry1_arg5 (c : Dev nD) : V3 m ρ c main_arg5 = m ((c : Thread nD τ).loc main_arg5) :=
  (show V3 m ρ c main_arg5 = W2 m ρ c (Proc.devRef .tc main_arg5) by dsimp only [V3, W3, hostOps1]; after_results_simp).trans (mid_arg5 m ρ c)

set_option maxHeartbeats 4000000 in
theorem entry1_arg7 (c : Dev nD) : V3 m ρ c main_arg7 = m ((c : Thread nD τ).loc main_arg7) :=
  (show V3 m ρ c main_arg7 = W2 m ρ c (Proc.devRef .tc main_arg7) by dsimp only [V3, W3, hostOps1]; after_results_simp).trans (mid_arg7 m ρ c)

set_option maxHeartbeats 4000000 in
theorem entry1_arg8 (c : Dev nD) : V3 m ρ c main_arg8 = m ((c : Thread nD τ).loc main_arg8) :=
  (show V3 m ρ c main_arg8 = W2 m ρ c (Proc.devRef .tc main_arg8) by dsimp only [V3, W3, hostOps1]; after_results_simp).trans (mid_arg8 m ρ c)

set_option maxHeartbeats 4000000 in
/-- The second layer's bias vector laid out as one row. -/
theorem entry1_bias (c : Dev nD) :
    V3 m ρ c main_v44 = shapeCast S1x64 (m ((c : Thread nD τ).loc main_arg6)) shapeCasts_S64_S1x64 := by
  have e : V3 m ρ c main_v44 = shapeCast S1x64 (W2 m ρ c (Proc.devRef .tc main_arg6)) shapeCasts_S64_S1x64 := by
    dsimp only [V3, W3, hostOps1]
    after_results_simp
    rfl
  rw [e, mid_arg6]

set_option maxHeartbeats 4000000 in
/-- The readout's bias vector laid out as one row. -/
theorem entry1_bias_out (c : Dev nD) :
    V3 m ρ c main_v45 = shapeCast S1x32 (m ((c : Thread nD τ).loc main_arg9)) shapeCasts_S32_S1x32 := by
  have e : V3 m ρ c main_v45 = shapeCast S1x32 (W2 m ρ c (Proc.devRef .tc main_arg9)) shapeCasts_S32_S1x32 := by
    dsimp only [V3, W3, hostOps1]
    after_results_simp
    rfl
  rw [e, mid_arg9]

/-! ## A bias vector laid out as one row, read back by its column -/

/-- The single row of a vector cast to a one-row matrix is the vector. -/
theorem rowOf_cast64 (x : (⟨S64, .f32⟩ : BufTy).Contents (Elt Ideal)) :
    rowOf (shapeCast S1x64 x shapeCasts_S64_S1x64) = byCoord x :=
  funext fun o => shapeCast_a_1a_apply x shapeCasts_S64_S1x64 0 o

/-- The same for the readout's 32 outputs. -/
theorem rowOf_cast32 (x : (⟨S32, .f32⟩ : BufTy).Contents (Elt Ideal)) :
    rowOf (shapeCast S1x32 x shapeCasts_S32_S1x32) = byCoord x :=
  funext fun o => shapeCast_a_1a_apply x shapeCasts_S32_S1x32 0 o

/-! ## The whole program as one function of the arguments -/

/-- The first layer's features of the input features `x` over the edge list `e`. -/
def layer1 (x : FVec Ideal S100000x64 .f32) (e : IVec S2x1600000 32) (w1l : FVec Ideal S64x64 .f32) (b1 : FVec Ideal S64 .f32)
    (w1r : FVec Ideal S64x64 .f32) : S100000x64.Idx → EReal :=
  layerArr (meanOf (F := Ideal) x (srcOf e) (dstOf e)) x w1l w1r (byCoord b1)

/-- The result: the readout of the second layer of the first layer, each layer over the mean of its input's
    neighbour rows. -/
def sageOut (x : FVec Ideal S100000x64 .f32) (e : IVec S2x1600000 32) (w1l : FVec Ideal S64x64 .f32) (b1 : FVec Ideal S64 .f32)
    (w1r w2l : FVec Ideal S64x64 .f32) (b2 : FVec Ideal S64 .f32) (w2r : FVec Ideal S64x64 .f32) (wh : FVec Ideal S32x64 .f32)
    (bh : FVec Ideal S32 .f32) : S100000x32.Idx → EReal :=
  readoutArr
    (layerArr (meanOf (F := Ideal) (layer1 x e w1l b1 w1r) (srcOf e) (dstOf e)) (layer1 x e w1l b1 w1r) w2l w2r (byCoord b2))
    wh (byCoord bh)

end Cert.KernelIdeal.SageHost

end
-- ==== Proof.SagePayload.lean ====
/-
  The two kernel bodies' stored values, read at one entry of the stored block, at the extended reals.

  Each body's value is a composition of entrywise operations (a sum, a maximum, a narrowing of the
  format, which at the extended reals is the identity), of layout operations (a cast to the same
  shape, the transpose of a weight matrix, one bias row repeated over all rows) and of products
  accumulated into the zero array. Read at one entry `(p, q)` every step is explicit:

    * an entrywise operation reads its operands at `(p, q)`;
    * a product of `x` with the transpose of `w` is the sum `∑ₖ x p k · w q k` over the one contracted
      axis of length 64 (the contraction index is its single coordinate, and the transposed weight at
      `(k, q)` is the weight at `(q, k)`);
    * the repeated bias row reads the row at column `q`.

  What remains is, term for term, one layer's entry, and for the second body the readout's entry of
  the layer's entries. Only the shape of the sums is used: no sum is reordered and nothing is evaluated.
-/
import proofs.«157710_j51616916963801_1_alg».proof.Proof.Gen.KernelIdeal.Skeleton
import proofs.«157710_j51616916963801_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SagePayload

open Cert.KernelIdeal Cert.KernelIdeal.Gen Idealize.ShloMosaic Idealize.ShloMosaic.ValueIdx Cert.Sage

/-! ## A product with a transposed weight, read at one entry

The contraction of `x : [10000, 64]` with the transpose of `w : [64, 64]` along the shared axis of
length 64, accumulated into the zero array: at row `p`, column `q` it is `∑ₖ x p k · w q k`. -/

/-- The left operand's row is the output's row. -/
theorem lhs64_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the contraction coordinate. -/
theorem lhs64_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c

/-- The right operand's row is the contraction coordinate. -/
theorem rhs64_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c

/-- The right operand's column is the output's column. -/
theorem rhs64_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product of `x` with the transpose of `w`, into the zero array, at `(p, q)`: `∑ₖ x p k · w q k`. -/
theorem matmul64_apply (x : FVec Ideal S10000x64 .bf16) (w : FVec Ideal S64x64 .bf16) (p : Fin 10000) (q : Fin 64) :
    matmul (F := Ideal) dot_S10000x64_S64x64_S10000x64_1_0_0_1_n_n none x
        (transpose S64x64 [1, 0] w transposes_S64x64_p1_0_S64x64)
        (constant (F := Ideal) S10000x64 .f32 0x00000000#32) (ix2 p q)
      = ∑ k : Fin 64, x (ix2 p k) * w (ix2 q k) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs64_0 _ _
      | ⟨1, _⟩ => exact (lhs64_1 _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs64_0 _ _).trans hk
      | ⟨1, _⟩ => exact rhs64_1 _ _)
  rw [el, er, transpose_ix2_apply]

/-! ## The readout's product, read at one entry

The same contraction with the transpose of `w : [32, 64]`: at row `p`, output `j` it is `∑ₖ x p k · w j k`. -/

/-- The left operand's row is the output's row. -/
theorem lhs32_0 (i : S10000x32.Idx) (c : dot_S10000x64_S64x32_S10000x32_1_0_0_1_n_n.contr.Idx) :
    (dot_S10000x64_S64x32_S10000x32_1_0_0_1_n_n.lhsIdx i c 0).val = (i 0).val := by
  unfold DotDims.lhsIdx
  rw [dif_neg (show ¬(0 : Fin S10000x64.rank) ∈ dot_S10000x64_S64x32_S10000x32_1_0_0_1_n_n.lhsBatch by decide),
    dif_pos (show (0 : Fin S10000x64.rank) ∈ dot_S10000x64_S64x32_S10000x32_1_0_0_1_n_n.lhsNonContracting by decide)]
  rfl

/-- The left operand's column is the contraction coordinate. -/
theorem lhs32_1 (i : S10000x32.Idx) (c : dot_S10000x64_S64x32_S10000x32_1_0_0_1_n_n.contr.Idx) :
    (dot_S10000x64_S64x32_S10000x32_1_0_0_1_n_n.lhsIdx i c 1).val = (c ⟨0, by decide⟩).val :=
  dot_S10000x64_S64x32_S10000x32_1_0_0_1_n_n.lhsIdx_val_of_single rfl i c

/-- The right operand's row is the contraction coordinate. -/
theorem rhs32_0 (i : S10000x32.Idx) (c : dot_S10000x64_S64x32_S10000x32_1_0_0_1_n_n.contr.Idx) :
    (dot_S10000x64_S64x32_S10000x32_1_0_0_1_n_n.rhsIdx i c 0).val = (c ⟨0, by decide⟩).val :=
  dot_S10000x64_S64x32_S10000x32_1_0_0_1_n_n.rhsIdx_val_of_single rfl i c

/-- The right operand's column is the output's column. -/
theorem rhs32_1 (i : S10000x32.Idx) (c : dot_S10000x64_S64x32_S10000x32_1_0_0_1_n_n.contr.Idx) :
    (dot_S10000x64_S64x32_S10000x32_1_0_0_1_n_n.rhsIdx i c 1).val = (i 1).val := by
  unfold DotDims.rhsIdx
  rw [dif_neg (show ¬(1 : Fin S64x32.rank) ∈ dot_S10000x64_S64x32_S10000x32_1_0_0_1_n_n.rhsBatch by decide),
    dif_pos (show (1 : Fin S64x32.rank) ∈ dot_S10000x64_S64x32_S10000x32_1_0_0_1_n_n.rhsNonContracting by decide)]
  rfl

/-- The product of `x` with the transpose of `w`, into the zero array, at `(p, j)`: `∑ₖ x p k · w j k`. -/
theorem matmul32_apply (x : FVec Ideal S10000x64 .bf16) (w : FVec Ideal S32x64 .bf16) (p : Fin 10000) (j : Fin 32) :
    matmul (F := Ideal) dot_S10000x64_S64x32_S10000x32_1_0_0_1_n_n none x
        (transpose S64x32 [1, 0] w transposes_S32x64_p1_0_S64x32)
        (constant (F := Ideal) S10000x32 .f32 0x00000000#32) (ix2 p j)
      = ∑ k : Fin 64, x (ix2 p k) * w (ix2 j k) := by
  simp only [matmul]
  rw [Ideal.matmul_constant_zero_apply,
    ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p j)
      ((contrEquiv1 dot_S10000x64_S64x32_S10000x32_1_0_0_1_n_n 64 rfl rfl).symm k) = ix2 p k :=
    funext fun a => Fin.ext (by
      match a with
      | ⟨0, _⟩ => exact lhs32_0 _ _
      | ⟨1, _⟩ => exact (lhs32_1 _ _).trans hk)
  have er : dot_S10000x64_S64x32_S10000x32_1_0_0_1_n_n.rhsIdx (ix2 p j)
      ((contrEquiv1 dot_S10000x64_S64x32_S10000x32_1_0_0_1_n_n 64 rfl rfl).symm k) = ix2 k j :=
    funext fun a => Fin.ext (by
      match a with
      | ⟨0, _⟩ => exact (rhs32_0 _ _).trans hk
      | ⟨1, _⟩ => exact rhs32_1 _ _)
  rw [el, er, transpose_ix2_apply]

/-! ## The two stored values -/

/-- The first body's stored value at row `p`, feature `q` of the block: one layer's entry of the loaded blocks. -/
theorem layer_payload_apply (a h : Vec Ideal S10000x64 .f32) (wl wr : Vec Ideal S64x64 .f32) (b : Vec Ideal S1x64 .f32)
    (p : Fin 10000) (q : Fin 64) :
    Gen.k0_pay1 (F := Ideal) a h wl wr b (ix2 p q)
      = layerAt (byCoords a) (byCoords h) (byCoords wl) (byCoords wr) (rowOf b) p q := by
  unfold Gen.k0_pay1
  rw [maximumf_apply, addf_apply, addf_apply, broadcast_apply, matmul64_apply, matmul64_apply,
    broadcastTo_1b_ab_apply, shapeCast_self, shapeCast_self]
  rfl

/-- The second body's stored value at row `p`, output `j` of the block: the readout's entry of one layer of the loaded blocks. -/
theorem readout_payload_apply (a h : Vec Ideal S10000x64 .f32) (wl wr : Vec Ideal S64x64 .f32) (b : Vec Ideal S1x64 .f32)
    (wh : Vec Ideal S32x64 .f32) (bh : Vec Ideal S1x32 .f32) (p : Fin 10000) (j : Fin 32) :
    Gen.k1_pay1 (F := Ideal) a h wl wr b wh bh (ix2 p j)
      = readoutAt (layerAt (byCoords a) (byCoords h) (byCoords wl) (byCoords wr) (rowOf b)) (byCoords wh) (rowOf bh) p j := by
  unfold Gen.k1_pay1
  rw [addf_apply, matmul32_apply, broadcastTo_1b_ab_apply, shapeCast_self bh]
  unfold readoutAt
  refine congrArg (· + _) (Finset.sum_congr rfl fun k _ => ?_)
  refine congrArg (· * _) ?_
  -- the left factor is the layer's entry at (p, k)
  rw [truncf_apply, maximumf_apply, addf_apply, addf_apply, broadcast_apply, matmul64_apply, matmul64_apply,
    broadcastTo_1b_ab_apply, shapeCast_self a, shapeCast_self h, shapeCast_self b]
  rfl

end Cert.KernelIdeal.SagePayload

end
-- ==== Proof.SageBlocks.lean ====
/-
  What each of the two tiled regions leaves in its output array: every row block of ten thousand nodes is
  written once, with the layer (or layer-and-readout) entries of the arrays the region reads.

  The node set is cut into ten blocks of ten thousand consecutive rows; grid point `t` works on rows
  `10000·t … 10000·t + 9999`. At that point the two row-blocked inputs are those rows of their arrays, all 64
  columns, and the weights and bias rows are their whole arrays whatever the point. So the entry `(p, q)` of
  what point `t` writes is the layer's (or the readout's) entry at node `10000·t + p` of the whole arrays: the
  formula of an entry only looks at one row of the node arrays. Since every row `r` lies in the block of
  point `r / 10000`, the ten blocks fill the output array, which therefore holds the whole-array formula.
-/
import proofs.«157710_j51616916963801_1_alg».proof.Proof.Gen.KernelIdeal.Frame
import proofs.«157710_j51616916963801_1_alg».proof.Proof.SagePayload
import proofs.«157710_j51616916963801_1_alg».proof.Proof.SageSpec

noncomputable section

open scoped BigOperators

namespace Cert.KernelIdeal.SageBlocks

open Cert.KernelIdeal Cert.KernelIdeal.Gen Idealize.ShloMosaic Idealize.ShloMosaic.TcCoe Idealize.ShloMosaic.ValueIdx Idealize.SL.Sem Cert.Sage

variable (V : (c : Dev nD) → (b : Ref sig .tc) → Buf (Elt Ideal) ((c : Thread nD τ).loc b))

/-- The zero offsets of a whole-block access, as the constant function. -/
theorem offsets_zero : (![0, 0] : Fin 2 → Nat) = fun _ => 0 := funext fun a => by fin_cases a <;> rfl

/-! ## The first region: one layer -/

/-- The block indices of the first region's six windows at every grid point: the two node arrays and the
    output move down one row block per point and stay in column block 0; the weights and the bias row stay at
    block (0, 0). -/
theorem layer_index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated-features block at point `t`, at row `x 0` and column `x 1`, is the array's entry at row `10000·t + x 0` and the same column. -/
theorem layer_mean_block (c : Dev nD) (t : Fin cfg0.N) (x : S10000x64.Idx) (i : S100000x64.Idx)
    (hi0 : (i 0).val = 10000 * t.val + (x 0).val) (hi1 : (i 1).val = (x 1).val) :
    (iblk0 (F := Ideal) V c 0 t : Vec Ideal S10000x64 .f32) x = (V c main_v22 : S100000x64.Idx → EReal) i := by
  obtain ⟨e0, e1, -⟩ := layer_index_facts t
  unfold iblk0
  rw [View.read_apply]
  show V c main_v22 _ = V c main_v22 _
  congr 1
  funext a
  apply Fin.ext
  match a with
  | ⟨0, _⟩ => show win0_0.index t 0 * 10000 + 1 * (x 0).val = (i 0).val; rw [e0, hi0]; omega
  | ⟨1, _⟩ => show win0_0.index t 1 * 64 + 1 * (x 1).val = (i 1).val; rw [e1, hi1]; omega

/-- The node-features block at point `t` is rows `10000·t …` of its array, likewise. -/
theorem layer_node_block (c : Dev nD) (t : Fin cfg0.N) (x : S10000x64.Idx) (i : S100000x64.Idx)
    (hi0 : (i 0).val = 10000 * t.val + (x 0).val) (hi1 : (i 1).val = (x 1).val) :
    (iblk0 (F := Ideal) V c 1 t : Vec Ideal S10000x64 .f32) x = (V c main_arg0 : S100000x64.Idx → EReal) i := by
  obtain ⟨-, -, e0, e1, -⟩ := layer_index_facts t
  unfold iblk0
  rw [View.read_apply]
  show V c main_arg0 _ = V c main_arg0 _
  congr 1
  funext a
  apply Fin.ext
  match a with
  | ⟨0, _⟩ => show win0_1.index t 0 * 10000 + 1 * (x 0).val = (i 0).val; rw [e0, hi0]; omega
  | ⟨1, _⟩ => show win0_1.index t 1 * 64 + 1 * (x 1).val = (i 1).val; rw [e1, hi1]; omega

/-- The left weight's block is the whole weight matrix at every point. -/
theorem layer_left_weight_block (c : Dev nD) (t : Fin cfg0.N) :
    (iblk0 (F := Ideal) V c 2 t : Vec Ideal S64x64 .f32) = (V c main_arg2 : S64x64.Idx → EReal) := by
  obtain ⟨-, -, -, -, e0, e1, -⟩ := layer_index_facts t
  funext x
  unfold iblk0
  rw [View.read_apply]
  show V c main_arg2 _ = V c main_arg2 _
  congr 1
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega

/-- The bias row's block is the whole row at every point. -/
theorem layer_bias_block (c : Dev nD) (t : Fin cfg0.N) :
    (iblk0 (F := Ideal) V c 3 t : Vec Ideal S1x64 .f32) = (V c main_v23 : S1x64.Idx → EReal) := by
  obtain ⟨-, -, -, -, -, -, e0, e1, -⟩ := layer_index_facts t
  funext x
  unfold iblk0
  rw [View.read_apply]
  show V c main_v23 _ = V c main_v23 _
  congr 1
  funext a
  apply Fin.ext
  match a with
  | ⟨0, _⟩ => show win0_3.index t 0 * 1 + 1 * (x 0).val = (x 0).val; rw [e0]; omega
  | ⟨1, _⟩ => show win0_3.index t 1 * 64 + 1 * (x 1).val = (x 1).val; rw [e1]; omega

/-- The right weight's block is the whole weight matrix at every point. -/
theorem layer_right_weight_block (c : Dev nD) (t : Fin cfg0.N) :
    (iblk0 (F := Ideal) V c 4 t : Vec Ideal S64x64 .f32) = (V c main_arg4 : S64x64.Idx → EReal) := by
  obtain ⟨-, -, -, -, -, -, -, -, e0, e1, -⟩ := layer_index_facts t
  funext x
  unfold iblk0
  rw [View.read_apply]
  show V c main_arg4 _ = V c main_arg4 _
  congr 1
  funext a
  apply Fin.ext
  match a with
  | ⟨0, _⟩ => show win0_4.index t 0 * 64 + 1 * (x 0).val = (x 0).val; rw [e0]; omega
  | ⟨1, _⟩ => show win0_4.index t 1 * 64 + 1 * (x 1).val = (x 1).val; rw [e1]; omega

/-- Entry `(p, q)` of the output block at point `t` sits at row `10000·t + p`, column `q` of the output array. -/
theorem layer_out_emb (t : Fin cfg0.N) (p : Fin 10000) (q : Fin 64) (h : 10000 * t.val + p.val < 100000) :
    (((cfg0.win 5).blk t).view.emb (ix2 p q) : S100000x64.Idx) = ix2 ⟨10000 * t.val + p.val, h⟩ q := by
  obtain ⟨-, -, -, -, -, -, -, -, -, -, e0, e1⟩ := layer_index_facts t
  funext a
  apply Fin.ext
  match a with
  | ⟨0, _⟩ => show win0_5.index t 0 * 10000 + 1 * p.val = 10000 * t.val + p.val; rw [e0]; omega
  | ⟨1, _⟩ => show win0_5.index t 1 * 64 + 1 * q.val = q.val; rw [e1]; omega

/-- One entry of what a point writes. For ANY two row blocks `x0`, `x1` that hold rows `10000·tv …` of two
    node arrays `A`, `H`, the body's value at `(p, q)` over these blocks and the whole weights and bias is the
    layer's entry at node `10000·tv + p` of the whole arrays: both are
    `max ((∑ₖ A · WL + B) + ∑ₖ H · WR, 0)` with the same summands, term by term. -/
theorem layer_entry (A H : S100000x64.Idx → EReal) (WL WR : S64x64.Idx → EReal) (B : S1x64.Idx → EReal)
    (x0 x1 : Vec Ideal S10000x64 .f32) (tv : Nat)
    (h0 : ∀ (x : S10000x64.Idx) (i : S100000x64.Idx), (i 0).val = 10000 * tv + (x 0).val → (i 1).val = (x 1).val → x0 x = A i)
    (h1 : ∀ (x : S10000x64.Idx) (i : S100000x64.Idx), (i 0).val = 10000 * tv + (x 0).val → (i 1).val = (x 1).val → x1 x = H i)
    (p : Fin 10000) (q : Fin 64) (h : 10000 * tv + p.val < 100000) :
    Gen.k0_pay1 (F := Ideal) x0 x1 WL WR B (ix2 p q)
      = layerArr A H WL WR (rowOf B) (ix2 (⟨10000 * tv + p.val, h⟩ : Fin 100000) q) := by
  rw [SagePayload.layer_payload_apply, layerArr_apply]
  have s0 : ∀ k : Fin 64, x0 (ix2 p k) = A (ix2 (⟨10000 * tv + p.val, h⟩ : Fin 100000) k) := fun k => h0 _ _ rfl rfl
  have s1 : ∀ k : Fin 64, x1 (ix2 p k) = H (ix2 (⟨10000 * tv + p.val, h⟩ : Fin 100000) k) := fun k => h1 _ _ rfl rfl
  unfold layerAt
  simp only [s0, s1]

/-- What point `t` writes back is block `t` of the layer of the arrays the region finds at entry. -/
theorem layer_flushed (c : Dev nD) (t : Fin cfg0.N) :
    (dat0 (F := Ideal) V c).flushed 5 t = ((cfg0.win 5).blk t).view.read (Elt Ideal)
      (layerArr (V c main_v22) (V c main_arg0) (V c main_arg2) (V c main_arg4) (rowOf (V c main_v23))) := by
  show (cfg0.win 5).cut (grid0.coords t) ((dat0 V c).after 5 t) = _
  rw [after0_5]
  unfold out0_5
  rw [View.canon_unit_zero offsets_zero]
  simp only [View.ld_unit_zero (S := S10000x64) offsets_zero, View.ld_unit_zero (S := S64x64) offsets_zero,
    View.ld_unit_zero (S := S1x64) offsets_zero]
  rw [layer_left_weight_block, layer_right_weight_block, layer_bias_block]
  funext j
  obtain ⟨p, q, rfl⟩ : ∃ (p : Fin 10000) (q : Fin 64), j = ix2 p q := ⟨j 0, j 1, eq_ix2 j⟩
  have ht : t.val < 10 := t.isLt
  have hb : 10000 * t.val + p.val < 100000 := by omega
  rw [View.read_apply, layer_out_emb t p q hb]
  exact layer_entry _ _ _ _ _ _ _ t.val (fun x i => layer_mean_block V c t x i) (fun x i => layer_node_block V c t x i) p q hb

/-- An index of the output array is in point `t`'s block iff each coordinate is in the block's range on its axis. -/
theorem layer_mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Every index of the output array is in the block of the point its row falls in: row `r` is in block `r / 10000`. -/
theorem layer_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 10000 < cfg0.N := by show _ < 10; omega
  refine ⟨(⟨(i 0).val / 10000, ht⟩ : Fin cfg0.N), flush0_5 _, ?_⟩
  obtain ⟨-, -, -, -, -, -, -, -, -, -, e0, e1⟩ := layer_index_facts (⟨(i 0).val / 10000, ht⟩ : Fin cfg0.N)
  rw [layer_mem_block]
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 64 ≤ (i 1).val ∧ (i 1).val < win0_5.index _ (1 : Fin 2) * 64 + 64
    rw [e1]; omega

/-- The first region's output array after the region: one layer of the arrays it finds at entry. -/
theorem layer_array (c : Dev nD) :
    (Gen.dat0 (F := Ideal) V c).arrAt 5 cfg0.N
      = layerArr (V c main_v22) (V c main_arg0) (V c main_arg2) (V c main_arg4) (rowOf (V c main_v23)) :=
  (dat0 (F := Ideal) V c).arrAt_eq_of_cover 5 _ (fun t _ => layer_flushed V c t) layer_cover

/-! ## The second region: one layer, then the readout -/

/-- The block indices of the second region's eight windows at every grid point: the two node arrays and the
    output move down one row block per point; the three weights and the two bias rows stay at block (0, 0). -/
theorem readout_index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The aggregated-features block at point `t`, at row `x 0` and column `x 1`, is the array's entry at row `10000·t + x 0` and the same column. -/
theorem readout_mean_block (c : Dev nD) (t : Fin cfg1.N) (x : S10000x64.Idx) (i : S100000x64.Idx)
    (hi0 : (i 0).val = 10000 * t.val + (x 0).val) (hi1 : (i 1).val = (x 1).val) :
    (iblk1 (F := Ideal) V c 0 t : Vec Ideal S10000x64 .f32) x = (V c main_v43 : S100000x64.Idx → EReal) i := by
  obtain ⟨e0, e1, -⟩ := readout_index_facts t
  unfold iblk1
  rw [View.read_apply]
  show V c main_v43 _ = V c main_v43 _
  congr 1
  funext a
  apply Fin.ext
  match a with
  | ⟨0, _⟩ => show win1_0.index t 0 * 10000 + 1 * (x 0).val = (i 0).val; rw [e0, hi0]; omega
  | ⟨1, _⟩ => show win1_0.index t 1 * 64 + 1 * (x 1).val = (i 1).val; rw [e1, hi1]; omega

/-- The node-features block at point `t` is rows `10000·t …` of its array, likewise. -/
theorem readout_node_block (c : Dev nD) (t : Fin cfg1.N) (x : S10000x64.Idx) (i : S100000x64.Idx)
    (hi0 : (i 0).val = 10000 * t.val + (x 0).val) (hi1 : (i 1).val = (x 1).val) :
    (iblk1 (F := Ideal) V c 1 t : Vec Ideal S10000x64 .f32) x = (V c main_v24 : S100000x64.Idx → EReal) i := by
  obtain ⟨-, -, e0, e1, -⟩ := readout_index_facts t
  unfold iblk1
  rw [View.read_apply]
  show V c main_v24 _ = V c main_v24 _
  congr 1
  funext a
  apply Fin.ext
  match a with
  | ⟨0, _⟩ => show win1_1.index t 0 * 10000 + 1 * (x 0).val = (i 0).val; rw [e0, hi0]; omega
  | ⟨1, _⟩ => show win1_1.index t 1 * 64 + 1 * (x 1).val = (i 1).val; rw [e1, hi1]; omega

/-- The layer's left weight's block is the whole weight matrix at every point. -/
theorem readout_left_weight_block (c : Dev nD) (t : Fin cfg1.N) :
    (iblk1 (F := Ideal) V c 2 t : Vec Ideal S64x64 .f32) = (V c main_arg5 : S64x64.Idx → EReal) := by
  obtain ⟨-, -, -, -, e0, e1, -⟩ := readout_index_facts t
  funext x
  unfold iblk1
  rw [View.read_apply]
  show V c main_arg5 _ = V c main_arg5 _
  congr 1
  funext a
  apply Fin.ext
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- The layer's bias row's block is the whole row at every point. -/
theorem readout_layer_bias_block (c : Dev nD) (t : Fin cfg1.N) :
    (iblk1 (F := Ideal) V c 3 t : Vec Ideal S1x64 .f32) = (V c main_v44 : S1x64.Idx → EReal) := by
  obtain ⟨-, -, -, -, -, -, e0, e1, -⟩ := readout_index_facts t
  funext x
  unfold iblk1
  rw [View.read_apply]
  show V c main_v44 _ = V c main_v44 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- The layer's right weight's block is the whole weight matrix at every point. -/
theorem readout_right_weight_block (c : Dev nD) (t : Fin cfg1.N) :
    (iblk1 (F := Ideal) V c 4 t : Vec Ideal S64x64 .f32) = (V c main_arg7 : S64x64.Idx → EReal) := by
  obtain ⟨-, -, -, -, -, -, -, -, e0, e1, -⟩ := readout_index_facts t
  funext x
  unfold iblk1
  rw [View.read_apply]
  show V c main_arg7 _ = V c main_arg7 _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

/-- The readout weight's block is the whole 32 × 64 matrix at every point. -/
theorem readout_head_weight_block (c : Dev nD) (t : Fin cfg1.N) :
    (iblk1 (F := Ideal) V c 5 t : Vec Ideal S32x64 .f32) = (V c main_arg8 : S32x64.Idx → EReal) := by
  obtain ⟨-, -, -, -, -, -, -, -, -, -, e0, e1, -⟩ := readout_index_facts t
  funext x
  unfold iblk1
  rw [View.read_apply]
  show V c main_arg8 _ = V c main_arg8 _
  congr 1
  funext a
  apply Fin.ext
  match a with
  | ⟨0, _⟩ => show win1_5.index t 0 * 32 + 1 * (x 0).val = (x 0).val; rw [e0]; omega
  | ⟨1, _⟩ => show win1_5.index t 1 * 64 + 1 * (x 1).val = (x 1).val; rw [e1]; omega

/-- The readout bias row's block is the whole row at every point. -/
theorem readout_head_bias_block (c : Dev nD) (t : Fin cfg1.N) :
    (iblk1 (F := Ideal) V c 6 t : Vec Ideal S1x32 .f32) = (V c main_v45 : S1x32.Idx → EReal) := by
  obtain ⟨-, -, -, -, -, -, -, -, -, -, -, -, e0, e1, -⟩ := readout_index_facts t
  funext x
  unfold iblk1
  rw [View.read_apply]
  show V c main_v45 _ = V c main_v45 _
  congr 1
  funext a
  apply Fin.ext
  match a with
  | ⟨0, _⟩ => show win1_6.index t 0 * 1 + 1 * (x 0).val = (x 0).val; rw [e0]; omega
  | ⟨1, _⟩ => show win1_6.index t 1 * 32 + 1 * (x 1).val = (x 1).val; rw [e1]; omega

/-- Entry `(p, j)` of the output block at point `t` sits at row `10000·t + p`, column `j` of the output array. -/
theorem readout_out_emb (t : Fin cfg1.N) (p : Fin 10000) (j : Fin 32) (h : 10000 * t.val + p.val < 100000) :
    (((cfg1.win 7).blk t).view.emb (ix2 p j) : S100000x32.Idx) = ix2 ⟨10000 * t.val + p.val, h⟩ j := by
  obtain ⟨-, -, -, -, -, -, -, -, -, -, -, -, -, -, e0, e1⟩ := readout_index_facts t
  funext a
  apply Fin.ext
  match a with
  | ⟨0, _⟩ => show win1_7.index t 0 * 10000 + 1 * p.val = 10000 * t.val + p.val; rw [e0]; omega
  | ⟨1, _⟩ => show win1_7.index t 1 * 32 + 1 * j.val = j.val; rw [e1]; omega

/-- One entry of what a point writes. For ANY two row blocks `x0`, `x1` that hold rows `10000·tv …` of two
    node arrays `A`, `H`, the body's value at `(p, j)` is the readout, at node `10000·tv + p`, of the layer of the
    whole arrays: `∑ₖ layer(10000·tv + p, k) · WH j k + BH j`, and each layer entry under the sum reads only
    that one row of `A` and `H`. -/
theorem readout_entry (A H : S100000x64.Idx → EReal) (WL WR : S64x64.Idx → EReal) (B : S1x64.Idx → EReal)
    (WH : S32x64.Idx → EReal) (BH : S1x32.Idx → EReal)
    (x0 x1 : Vec Ideal S10000x64 .f32) (tv : Nat)
    (h0 : ∀ (x : S10000x64.Idx) (i : S100000x64.Idx), (i 0).val = 10000 * tv + (x 0).val → (i 1).val = (x 1).val → x0 x = A i)
    (h1 : ∀ (x : S10000x64.Idx) (i : S100000x64.Idx), (i 0).val = 10000 * tv + (x 0).val → (i 1).val = (x 1).val → x1 x = H i)
    (p : Fin 10000) (j : Fin 32) (h : 10000 * tv + p.val < 100000) :
    Gen.k1_pay1 (F := Ideal) x0 x1 WL WR B WH BH (ix2 p j)
      = readoutArr (layerArr A H WL WR (rowOf B)) WH (rowOf BH) (ix2 (⟨10000 * tv + p.val, h⟩ : Fin 100000) j) := by
  rw [SagePayload.readout_payload_apply, readoutArr_apply, byCoords_layerArr]
  have s0 : ∀ k : Fin 64, x0 (ix2 p k) = A (ix2 (⟨10000 * tv + p.val, h⟩ : Fin 100000) k) := fun k => h0 _ _ rfl rfl
  have s1 : ∀ k : Fin 64, x1 (ix2 p k) = H (ix2 (⟨10000 * tv + p.val, h⟩ : Fin 100000) k) := fun k => h1 _ _ rfl rfl
  unfold readoutAt layerAt
  simp only [s0, s1]

/-- What point `t` writes back is block `t` of the readout of the layer of the arrays the region finds at entry. -/
theorem readout_flushed (c : Dev nD) (t : Fin cfg1.N) :
    (dat1 (F := Ideal) V c).flushed 7 t = ((cfg1.win 7).blk t).view.read (Elt Ideal)
      (readoutArr (layerArr (V c main_v43) (V c main_v24) (V c main_arg5) (V c main_arg7) (rowOf (V c main_v44)))
        (V c main_arg8) (rowOf (V c main_v45))) := by
  show (cfg1.win 7).cut (grid1.coords t) ((dat1 V c).after 7 t) = _
  rw [after1_7]
  unfold out1_7
  rw [View.canon_unit_zero offsets_zero]
  simp only [View.ld_unit_zero (S := S10000x64) offsets_zero, View.ld_unit_zero (S := S64x64) offsets_zero,
    View.ld_unit_zero (S := S1x64) offsets_zero, View.ld_unit_zero (S := S32x64) offsets_zero,
    View.ld_unit_zero (S := S1x32) offsets_zero]
  rw [readout_left_weight_block, readout_right_weight_block, readout_layer_bias_block, readout_head_weight_block,
    readout_head_bias_block]
  funext y
  obtain ⟨p, j, rfl⟩ : ∃ (p : Fin 10000) (j : Fin 32), y = ix2 p j := ⟨y 0, y 1, eq_ix2 y⟩
  have ht : t.val < 10 := t.isLt
  have hb : 10000 * t.val + p.val < 100000 := by omega
  rw [View.read_apply, readout_out_emb t p j hb]
  exact readout_entry _ _ _ _ _ _ _ _ _ t.val (fun x i => readout_mean_block V c t x i) (fun x i => readout_node_block V c t x i) p j hb

/-- An index of the output array is in point `t`'s block iff each coordinate is in the block's range on its axis. -/
theorem readout_mem_block (t : Fin cfg1.N) (i : S100000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v46).slice (win1_7.rect t)).set ↔ _
  rw [View.set_slice_whole, Rect.mem_set_unit]
  exact Iff.rfl

/-- Every index of the output array is in the block of the point its row falls in: row `r` is in block `r / 10000`. -/
theorem readout_cover (i : S100000x32.Idx) :
    ∃ t : Fin cfg1.N, (cfg1.win 7).flush t = true ∧ i ∈ ((cfg1.win 7).blk t).view.set := by
  have hi0 : (i 0).val < 100000 := (i 0).isLt
  have hi1 : (i 1).val < 32 := (i 1).isLt
  have ht : (i 0).val / 10000 < cfg1.N := by show _ < 10; omega
  refine ⟨(⟨(i 0).val / 10000, ht⟩ : Fin cfg1.N), flush1_7 _, ?_⟩
  obtain ⟨-, -, -, -, -, -, -, -, -, -, -, -, -, -, e0, e1⟩ := readout_index_facts (⟨(i 0).val / 10000, ht⟩ : Fin cfg1.N)
  rw [readout_mem_block]
  intro a
  match a with
  | ⟨0, _⟩ =>
    show win1_7.index _ (0 : Fin 2) * 10000 ≤ (i 0).val ∧ (i 0).val < win1_7.index _ (0 : Fin 2) * 10000 + 10000
    rw [e0]; show (i 0).val / 10000 * 10000 ≤ (i 0).val ∧ (i 0).val < (i 0).val / 10000 * 10000 + 10000; omega
  | ⟨1, _⟩ =>
    show win1_7.index _ (1 : Fin 2) * 32 ≤ (i 1).val ∧ (i 1).val < win1_7.index _ (1 : Fin 2) * 32 + 32
    rw [e1]; omega

/-- The second region's output array after the region: the readout of one layer of the arrays it finds at entry. -/
theorem readout_array (c : Dev nD) :
    (Gen.dat1 (F := Ideal) V c).arrAt 7 cfg1.N
      = readoutArr (layerArr (V c main_v43) (V c main_v24) (V c main_arg5) (V c main_arg7) (rowOf (V c main_v44)))
          (V c main_arg8) (rowOf (V c main_v45)) :=
  (dat1 (F := Ideal) V c).arrAt_eq_of_cover 7 _ (fun t _ => readout_flushed V c t) readout_cover

end Cert.KernelIdeal.SageBlocks

end
-- ==== Proof.SageKernel.lean ====
/-
  The kernel program's run, with its result at the specification's function of the arguments.

  The result buffer ends at what the second region's ten write-backs leave: the readout of one layer of the arrays
  the region finds at entry. Those are the mean of the neighbours' rows of the first region's output, that output
  itself, and the second layer's and the readout's weights and biases as launched; and the first region's output
  is, in the same way, one layer of the mean of the input features, the input features and the first layer's
  weights and bias. Substituting the one into the other gives the readout of the second layer of the first layer.
-/
import proofs.«157710_j51616916963801_1_alg».proof.Proof.SageRun
import proofs.«157710_j51616916963801_1_alg».proof.Proof.SageHost
import proofs.«157710_j51616916963801_1_alg».proof.Proof.SageBlocks

set_option maxRecDepth 16384

noncomputable section

namespace Cert.KernelIdeal.SageKernel

open Cert.KernelIdeal Cert.KernelIdeal.Gen Cert.KernelIdeal.SageHost
open Idealize.ShloMosaic Idealize.ShloMosaic.TcCoe Idealize.SL.Sem Idealize.ShloMosaic.ValueIdx Cert.Sage

variable (m : (ℓ : Loc nD τ sig) → Buf (Elt Ideal) ℓ) (ρ : Dev nD → PrngReg)

/-- Between the regions the first region's output array holds the first layer's features. -/
theorem layer_value (c : Dev nD) : W2 m ρ c (Proc.devRef .tc main_v24)
    = layer1 (m ((c : Thread nD τ).loc main_arg0)) (m ((c : Thread nD τ).loc main_arg1)) (m ((c : Thread nD τ).loc main_arg2))
        (m ((c : Thread nD τ).loc main_arg3)) (m ((c : Thread nD τ).loc main_arg4)) := by
  rw [mid_layer, SageBlocks.layer_array (V1 m ρ) c, entry0_mean, entry0_arg0, entry0_arg2, entry0_arg4, entry0_bias, rowOf_cast64]
  rfl

/-- After the second region the result array holds the specification's function of the arguments. -/
theorem result_value (c : Dev nD) : W4 m ρ c (Proc.devRef .tc main_v46)
    = sageOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  rw [SageBlocks.readout_array (V3 m ρ) c, entry1_mean, entry1_layer, entry1_arg5, entry1_arg7, entry1_arg8, entry1_bias,
    entry1_bias_out, rowOf_cast64, rowOf_cast32, mid_src, mid_dst, layer_value m ρ c]
  rfl

/-- Every weakly fair execution of the kernel program terminates with the result array at the specification's
    function of the arguments and the arguments as launched. -/
theorem run : θ_run defs (onTc (τ := τ) (main (F := Ideal))) ⟨m, fun _ => 0, ρ⟩ (fun r => ∀ c : Dev nD,
      r.2.mem ((c.tc : Thread nD τ).loc main_v46) = sageOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_value m ρ c), (h c).2⟩)
    (Cert.KernelIdeal.SageRun.run_named (F := Ideal) m ρ)

end Cert.KernelIdeal.SageKernel

end
-- ==== Proof.SageRef.lean ====
/-
  The reference program's result, read through its operations: the readout of the second layer of the first layer.
-/
import proofs.«157710_j51616916963801_1_alg».proof.Proof.Gen.ReferenceIdeal.Read
import proofs.«157710_j51616916963801_1_alg».proof.Proof.SageSpec
import Idealize.ShloMosaic.Lib.ValueIdx
import Idealize.ShloMosaic.PureOps.Ideal.Laws

noncomputable section

open scoped BigOperators

namespace Cert.ReferenceIdeal.SageRef

open Cert.ReferenceIdeal Cert.ReferenceIdeal.Read Idealize.ShloMosaic Idealize.ShloMosaic.ValueIdx Cert.Sage

/-- The mean of the neighbours' rows, as the reference computes it from a feature matrix and the edge list. -/
abbrev meanOf (h : (⟨S100000x64, .f32⟩ : BufTy).Contents (Elt Ideal)) (e : (⟨S2x1600000, .i32⟩ : BufTy).Contents (Elt Ideal)) :
    (⟨S100000x64, .f32⟩ : BufTy).Contents (Elt Ideal) := val_main_v22 (F := Ideal) h e

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S32x64, .f32⟩ : BufTy).Contents (Elt Ideal))
  (x9 : (⟨S32, .f32⟩ : BufTy).Contents (Elt Ideal))

/-! ### Where a product, a transposed weight and a broadcast bias are read

  An entry `(p, q)` of a product of a feature matrix with a transposed weight matrix sums, over the shared
  axis `k`, the feature matrix at `(p, k)` times the transposed weight at `(k, q)`, which is the weight itself
  at `(q, k)`; the bias, first made a one-row matrix and then repeated down the rows, is read at `q`. -/

section indices

variable (p : Fin 100000) (q k : Fin 64)

theorem lidx_v24 : lidx_main_v24 (ix2 p q) k = ix2 p k :=
  funext fun a => Fin.ext (by match a with | ⟨0, _⟩ => rfl | ⟨1, _⟩ => rfl)

theorem widx_v24 : idx_main_v23 (ridx_main_v24 (ix2 p q) k) = ix2 q k :=
  funext fun a => Fin.ext (by match a with | ⟨0, _⟩ => rfl | ⟨1, _⟩ => rfl)

theorem lidx_v29 : lidx_main_v29 (ix2 p q) k = ix2 p k :=
  funext fun a => Fin.ext (by match a with | ⟨0, _⟩ => rfl | ⟨1, _⟩ => rfl)

theorem widx_v29 : idx_main_v28 (ridx_main_v29 (ix2 p q) k) = ix2 q k :=
  funext fun a => Fin.ext (by match a with | ⟨0, _⟩ => rfl | ⟨1, _⟩ => rfl)

theorem bidx_v26 : idx_main_v25 (idx_main_v26 (ix2 p q)) = ix1 q :=
  funext fun a => Fin.ext (by match a with | ⟨0, _⟩ => rfl)

theorem lidx_v52 : lidx_main_v52 (ix2 p q) k = ix2 p k :=
  funext fun a => Fin.ext (by match a with | ⟨0, _⟩ => rfl | ⟨1, _⟩ => rfl)

theorem widx_v52 : idx_main_v51 (ridx_main_v52 (ix2 p q) k) = ix2 q k :=
  funext fun a => Fin.ext (by match a with | ⟨0, _⟩ => rfl | ⟨1, _⟩ => rfl)

theorem lidx_v57 : lidx_main_v57 (ix2 p q) k = ix2 p k :=
  funext fun a => Fin.ext (by match a with | ⟨0, _⟩ => rfl | ⟨1, _⟩ => rfl)

theorem widx_v57 : idx_main_v56 (ridx_main_v57 (ix2 p q) k) = ix2 q k :=
  funext fun a => Fin.ext (by match a with | ⟨0, _⟩ => rfl | ⟨1, _⟩ => rfl)

theorem bidx_v54 : idx_main_v53 (idx_main_v54 (ix2 p q)) = ix1 q :=
  funext fun a => Fin.ext (by match a with | ⟨0, _⟩ => rfl)

variable (j : Fin 32)

theorem lidx_v61 : lidx_main_v61 (ix2 p j) k = ix2 p k :=
  funext fun a => Fin.ext (by match a with | ⟨0, _⟩ => rfl | ⟨1, _⟩ => rfl)

theorem widx_v61 : idx_main_v60 (ridx_main_v61 (ix2 p j) k) = ix2 j k :=
  funext fun a => Fin.ext (by match a with | ⟨0, _⟩ => rfl | ⟨1, _⟩ => rfl)

theorem bidx_v63 : idx_main_v62 (idx_main_v63 (ix2 p j)) = ix1 j :=
  funext fun a => Fin.ext (by match a with | ⟨0, _⟩ => rfl)

end indices

/-- The first layer's features. -/
theorem layer1_eq : val_main_v31 (F := Ideal) x0 x1 x2 x3 x4 = layerArr (meanOf x0 x1) x0 x2 x4 (byCoord x3) := by
  -- entry (p, q): the maximum with the zero word of (mean · W1lᵀ + b1) + x · W1rᵀ, the bias joining the first
  -- product before the second is added; the mean stays an unopened array
  funext i
  obtain ⟨p, q, rfl⟩ : ∃ (p : Fin 100000) (q : Fin 64), i = ix2 p q := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply, layerArr_apply]
  unfold layerAt meanOf
  generalize val_main_v22 (F := Ideal) x0 x1 = A
  simp only [val_main_v23_apply, val_main_v28_apply, lidx_v24, widx_v24, lidx_v29, widx_v29, bidx_v26]
  rfl

/-- The second aggregation is the first one's chain applied to the first layer's features. -/
theorem mean2_eq : val_main_v50 (F := Ideal) x0 x1 x2 x3 x4 = meanOf (val_main_v31 (F := Ideal) x0 x1 x2 x3 x4) x1 := by
  -- both sides divide the sum of the source rows gathered per edge and added into their target rows by the
  -- target's edge count (at least one); the wrapped source indices, the target indices, the zero arrays and the
  -- counts are the same expressions of the edge list, so once every step is written out the two sides are one
  -- term in the features `H` and the two rows `E1`, `E3` of the edge list
  unfold meanOf
  unfold val_main_v50 val_main_v41 val_main_v38 val_main_v22 val_main_v13 val_main_v10
  generalize val_main_v31 (F := Ideal) x0 x1 x2 x3 x4 = H
  unfold val_main_v49 val_main_v48 val_main_v47 val_main_v46 val_main_cst_9 val_main_v45 val_main_v44 val_main_v43
    val_main_cst_8 val_main_v42 val_main_cst_7 val_main_v40 val_main_v39 val_main_cst_6 val_main_v37 val_main_v36
    val_main_v35 val_main_v34 val_main_c_5 val_main_v33 val_main_v32 val_main_c_4
  unfold val_main_v21 val_main_v20 val_main_v19 val_main_v18 val_main_cst_3 val_main_v17 val_main_v16 val_main_v15
    val_main_cst_2 val_main_v14 val_main_cst_1 val_main_v12 val_main_v11 val_main_cst val_main_v9 val_main_v8
    val_main_v7 val_main_v6 val_main_c_0 val_main_v5 val_main_v4 val_main_c
  generalize val_main_v1 (F := Ideal) x1 = E1
  generalize val_main_v3 (F := Ideal) x1 = E3
  rfl

/-- The second layer's features. -/
theorem layer2_eq : val_main_v59 (F := Ideal) x0 x1 x2 x3 x4 x5 x6 x7
    = layerArr (val_main_v50 (F := Ideal) x0 x1 x2 x3 x4) (val_main_v31 (F := Ideal) x0 x1 x2 x3 x4) x5 x7 (byCoord x6) := by
  -- entry (p, q): the first layer's formula with the second mean `A` and the first layer's features `H`
  funext i
  obtain ⟨p, q, rfl⟩ : ∃ (p : Fin 100000) (q : Fin 64), i = ix2 p q := ⟨i 0, i 1, eq_ix2 i⟩
  rw [val_main_v59_apply, val_main_v58_apply, val_main_v55_apply, val_main_v52_apply, val_main_v57_apply,
    val_main_v54_apply, val_main_v53_apply, val_main_call1_v0_apply, val_main_call1_cst_apply, layerArr_apply]
  unfold layerAt
  generalize val_main_v50 (F := Ideal) x0 x1 x2 x3 x4 = A
  generalize val_main_v31 (F := Ideal) x0 x1 x2 x3 x4 = H
  simp only [val_main_v51_apply, val_main_v56_apply, lidx_v52, widx_v52, lidx_v57, widx_v57, bidx_v54]
  rfl

/-- The result. -/
theorem readout_eq : val_main_v64 (F := Ideal) x0 x1 x2 x3 x4 x5 x6 x7 x8 x9
    = readoutArr (val_main_v59 (F := Ideal) x0 x1 x2 x3 x4 x5 x6 x7) x8 (byCoord x9) := by
  -- entry (p, j): the product of the second layer's features `H` with the transposed readout weights, plus the bias
  funext i
  obtain ⟨p, j, rfl⟩ : ∃ (p : Fin 100000) (j : Fin 32), i = ix2 p j := ⟨i 0, i 1, eq_ix2 i⟩
  rw [val_main_v64_apply, val_main_v61_apply, val_main_v63_apply, val_main_v62_apply, readoutArr_apply]
  unfold readoutAt
  generalize val_main_v59 (F := Ideal) x0 x1 x2 x3 x4 x5 x6 x7 = H
  simp only [val_main_v60_apply, lidx_v61, widx_v61, bidx_v63]
  rfl

/-- The reference's result as one function of its arguments. -/
theorem result_eq : val_main_v64 (F := Ideal) x0 x1 x2 x3 x4 x5 x6 x7 x8 x9
    = readoutArr
        (layerArr (meanOf (layerArr (meanOf x0 x1) x0 x2 x4 (byCoord x3)) x1) (layerArr (meanOf x0 x1) x0 x2 x4 (byCoord x3)) x5 x7 (byCoord x6))
        x8 (byCoord x9) := by
  rw [readout_eq, layer2_eq, mean2_eq, layer1_eq]

end Cert.ReferenceIdeal.SageRef

end
-- ==== Proof.SageBridge.lean ====
/-
  The reference program computes the same function of the arguments as the specification.

  The reference forms the mean of the neighbours' rows by the same host operations as the kernel program: the same
  slices of the edge list, the same wrap of negative sources, the same gather, the same two sums scattered onto the
  destinations, the same maximum with one and the same division. Written out, the two chains are one term, so the
  two means are equal as they stand, and the reference's result, already read as the readout of two layers, is the
  specification's function.
-/
import proofs.«157710_j51616916963801_1_alg».proof.Proof.SageHost
import proofs.«157710_j51616916963801_1_alg».proof.Proof.SageRef

set_option maxRecDepth 16384

noncomputable section

namespace Cert.SageBridge

open Cert.KernelIdeal Cert.KernelIdeal.SageHost
open Idealize.ShloMosaic Idealize.ShloMosaic.ValueIdx Cert.Sage

/-- The two programs' mean chains are one function of a feature matrix and the edge list. -/
theorem mean_eq (h : FVec Ideal S100000x64 .f32) (e : IVec S2x1600000 32) :
    meanOf (F := Ideal) h (srcOf e) (dstOf e) = Cert.ReferenceIdeal.SageRef.meanOf h e := by
  unfold meanOf srcOf dstOf Cert.ReferenceIdeal.SageRef.meanOf
  unfold Cert.ReferenceIdeal.Read.val_main_v22
    Cert.ReferenceIdeal.Read.val_main_v13
    Cert.ReferenceIdeal.Read.val_main_v10
    Cert.ReferenceIdeal.Read.val_main_v21
    Cert.ReferenceIdeal.Read.val_main_v20
    Cert.ReferenceIdeal.Read.val_main_v19
    Cert.ReferenceIdeal.Read.val_main_v18
    Cert.ReferenceIdeal.Read.val_main_cst_3
    Cert.ReferenceIdeal.Read.val_main_v17
    Cert.ReferenceIdeal.Read.val_main_v16
    Cert.ReferenceIdeal.Read.val_main_v15
    Cert.ReferenceIdeal.Read.val_main_cst_2
    Cert.ReferenceIdeal.Read.val_main_v14
    Cert.ReferenceIdeal.Read.val_main_cst_1
    Cert.ReferenceIdeal.Read.val_main_v12
    Cert.ReferenceIdeal.Read.val_main_v11
    Cert.ReferenceIdeal.Read.val_main_cst
    Cert.ReferenceIdeal.Read.val_main_v9
    Cert.ReferenceIdeal.Read.val_main_v8
    Cert.ReferenceIdeal.Read.val_main_v7
    Cert.ReferenceIdeal.Read.val_main_v6
    Cert.ReferenceIdeal.Read.val_main_c_0
    Cert.ReferenceIdeal.Read.val_main_v5
    Cert.ReferenceIdeal.Read.val_main_v4
    Cert.ReferenceIdeal.Read.val_main_c
    Cert.ReferenceIdeal.Read.val_main_v1
    Cert.ReferenceIdeal.Read.val_main_v0
    Cert.ReferenceIdeal.Read.val_main_v3
    Cert.ReferenceIdeal.Read.val_main_v2
  rfl

/-- The reference's result is the specification's function of its arguments. -/
theorem reference_eq (x0 : FVec Ideal S100000x64 .f32) (x1 : IVec S2x1600000 32) (x2 : FVec Ideal S64x64 .f32) (x3 : FVec Ideal S64 .f32)
    (x4 x5 : FVec Ideal S64x64 .f32) (x6 : FVec Ideal S64 .f32) (x7 : FVec Ideal S64x64 .f32) (x8 : FVec Ideal S32x64 .f32)
    (x9 : FVec Ideal S32 .f32) :
    Cert.ReferenceIdeal.Read.val_main_v64 (F := Ideal) x0 x1 x2 x3 x4 x5 x6 x7 x8 x9 = sageOut x0 x1 x2 x3 x4 x5 x6 x7 x8 x9 := by
  rw [Cert.ReferenceIdeal.SageRef.result_eq]
  unfold sageOut layer1
  rw [mean_eq, mean_eq]

end Cert.SageBridge

end
-- ==== Proof.lean ====
/-
  A two-layer mean-aggregating graph convolution with a linear readout, computed by a tiled kernel program and by a
  plain reference program, gives the same result on the extended reals.

  Both programs form, for each of the 100000 nodes, the mean of the feature rows of the nodes that send it an edge
  (the sum over its incoming edges divided by their number, at least one), apply one layer
      max ( (mean · Wlᵀ + b) + h · Wrᵀ , 0 )
  to the input features, a second such layer to the first layer's features, and the readout  h2 · Whᵀ + bh  to the
  second layer's. The mean is formed by the same host operations in both programs and is carried as one unopened
  function. The kernel program computes each layer in a region of ten blocks of ten thousand rows, narrowing its
  operands to a shorter float format first (the identity on the extended reals), transposing each weight matrix and
  accumulating each product into the zero array; the reference transposes the weights and takes the products of the
  whole arrays. Entry by entry both are the same sums over the 64 features, with the bias joining the first product
  before the second is added and the maximum with zero last, so the two results are equal as they stand: no sum is
  reordered, no product distributed, and nothing about the inputs' finiteness is used.

  The three frame claims are the generated frame of each kernel program and the reference's generated run with its
  result dropped; the kernel program is read at the exact instance without any rewrite, so nothing is owed for its
  idealization.
-/
import proofs.«157710_j51616916963801_1_alg».proof.Defs
import proofs.«157710_j51616916963801_1_alg».proof.Proof.Gen.Kernel
import proofs.«157710_j51616916963801_1_alg».proof.Proof.Gen.Kernel.Skeleton
import proofs.«157710_j51616916963801_1_alg».proof.Proof.Gen.Kernel.Launch
import proofs.«157710_j51616916963801_1_alg».proof.Proof.Gen.Kernel.Points
import proofs.«157710_j51616916963801_1_alg».proof.Proof.Gen.Kernel.Frame
import proofs.«157710_j51616916963801_1_alg».proof.Proof.Gen.KernelIdeal
import proofs.«157710_j51616916963801_1_alg».proof.Proof.Gen.KernelIdeal.Skeleton
import proofs.«157710_j51616916963801_1_alg».proof.Proof.Gen.KernelIdeal.Launch
import proofs.«157710_j51616916963801_1_alg».proof.Proof.Gen.KernelIdeal.Points
import proofs.«157710_j51616916963801_1_alg».proof.Proof.Gen.KernelIdeal.Frame
import proofs.«157710_j51616916963801_1_alg».proof.Proof.Gen.ReferenceIdeal
import proofs.«157710_j51616916963801_1_alg».proof.Proof.Gen.ReferenceIdeal.Run
import proofs.«157710_j51616916963801_1_alg».proof.Proof.Gen.ReferenceIdeal.Read
import proofs.«157710_j51616916963801_1_alg».proof.Proof.Gen.Pre_finite_inputs
import proofs.«157710_j51616916963801_1_alg».proof.Proof.SageKernel
import proofs.«157710_j51616916963801_1_alg».proof.Proof.SageBridge
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_kernel : Cert.frame_Kernel := fun m ρ _ => Cert.Kernel.Gen.frame m ρ

/-- The kernel program at the exact instance runs, and its arguments end as launched. -/
theorem frame_kernel_ideal : Cert.frame_KernelIdeal := fun m ρ _ => Cert.KernelIdeal.Gen.frame m ρ

/-- The reference program runs, and its arguments end as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel program was rewritten for the exact instance. -/
theorem preserves : Cert.preserves_Kernel_KernelIdeal := trivial

/-- From memories that agree on the arguments, both programs end with the result array at the specification's
    function of the arguments. -/
theorem algebraic : Cert.algebraic_KernelIdeal_ReferenceIdeal := by
  intro m ρ m' ρ' _ hagree
  refine ⟨fun c => Cert.KernelIdeal.SageHost.sageOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.SageKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v64_eq, a0, a1, a2, a3, a4, a5, a6, a7, a8, a9]
  exact Cert.SageBridge.reference_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
